-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x16384 : Shape := ⟨3, ![2, 4096, 16384]⟩
abbrev S4096x16384 : Shape := ⟨2, ![4096, 16384]⟩
abbrev S4096 : Shape := ⟨1, ![4096]⟩
abbrev S_ : Shape := ⟨0, ![]⟩

class Facts : Prop where
  bcast_S_S2x4096x16384 : S_.BroadcastsInDim S2x4096x16384 (![] : Fin 0 → Fin S2x4096x16384.rank)
  reducesTo_S2x4096x16384_S_d0_1_2 : S2x4096x16384.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x4096x16384 .f32) (main_arg1 : FVec F S4096x16384 .f32) (main_arg2 : FVec F S4096 .f32) : IVec S_ 1 :=
  let main_v0 : FVec F S2x4096x16384 .f32 := Host.absf main_arg0
  let main_cst : FVec F S_ .f32 := constant S_ .f32 0x7F800000#32
  let main_v1 : FVec F S2x4096x16384 .f32 := broadcastInDim S2x4096x16384 ![] bcast_S_S2x4096x16384 main_cst
  let main_v2 : IVec S2x4096x16384 1 := cmpf .olt main_v0 main_v1
  let main_c : IVec S_ 1 := constantI S_ 1 1#1
  let main_v3 : IVec S_ 1 := (fun x v => Host.reduce IntOp.andi x v reducesTo_S2x4096x16384_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x4096x16384 : Shape := ⟨3, ![2, 4096, 16384]⟩
abbrev S4096x16384 : Shape := ⟨2, ![4096, 16384]⟩
abbrev S4096 : Shape := ⟨1, ![4096]⟩
abbrev S8192x16384 : Shape := ⟨2, ![8192, 16384]⟩
abbrev S1x4096 : Shape := ⟨2, ![1, 4096]⟩
abbrev S8192x4096 : Shape := ⟨2, ![8192, 4096]⟩
abbrev S1024x1024 : Shape := ⟨2, ![1024, 1024]⟩
abbrev S1x1024 : Shape := ⟨2, ![1, 1024]⟩
abbrev S2x4096x4096 : Shape := ⟨3, ![2, 4096, 4096]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x16384, .f32⟩
  | .hbm, ⟨1, _⟩ => ⟨S4096x16384, .f32⟩
  | .hbm, ⟨2, _⟩ => ⟨S4096, .f32⟩
  | .hbm, ⟨3, _⟩ => ⟨S8192x16384, .f32⟩
  | .hbm, ⟨4, _⟩ => ⟨S1x4096, .f32⟩
  | .hbm, ⟨5, _⟩ => ⟨S8192x4096, .f32⟩
  | .hbm, ⟨6, _⟩ => ⟨S2x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | _, _ => ⟨S2x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

class Facts₀ : Prop where
  shapeCasts_S2x4096x16384_S8192x16384 : S2x4096x16384.ShapeCasts S8192x16384
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S2x4096x4096 : S8192x4096.ShapeCasts S2x4096x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x16384.size a
  hwx0_0 : ∀ i : grid0.Coords, EltTy.bits .f32 = 32 ∨ (Rect.block (s := S8192x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x16384.size a
  hwx0_1 : ∀ i : grid0.Coords, EltTy.bits .f32 = 32 ∨ (Rect.block (s := S4096x16384) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x16384 : Shape := ⟨3, ![2, 4096, 16384]⟩
abbrev S4096x16384 : Shape := ⟨2, ![4096, 16384]⟩
abbrev S4096 : Shape := ⟨1, ![4096]⟩
abbrev S2x4096x4096 : Shape := ⟨3, ![2, 4096, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x16384, .f32⟩
  | .hbm, ⟨1, _⟩ => ⟨S4096x16384, .f32⟩
  | .hbm, ⟨2, _⟩ => ⟨S4096, .f32⟩
  | .hbm, ⟨3, _⟩ => ⟨S2x4096x4096, .f32⟩
  | .hbm, ⟨4, _⟩ => ⟨S1x1x4096, .f32⟩
  | .hbm, ⟨5, _⟩ => ⟨S2x4096x4096, .f32⟩
  | .hbm, ⟨6, _⟩ => ⟨S2x4096x4096, .f32⟩
  | _, _ => ⟨S2x4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x16384_S4096x16384_S2x4096x4096_2_1_01_0_n_n_wf : DotDims.WF S2x4096x16384 S4096x16384 S2x4096x4096 [2] [1] [0, 1] [0] [] []

variable [Facts₀]

def dot_S2x4096x16384_S4096x16384_S2x4096x4096_2_1_01_0_n_n : DotDims S2x4096x16384 S4096x16384 S2x4096x4096 where
  lhsContracting := [2]
  rhsContracting := [1]
  lhsNonContracting := [0, 1]
  rhsNonContracting := [0]
  lhsBatch := []
  rhsBatch := []
  wf := dot_S2x4096x16384_S4096x16384_S2x4096x4096_2_1_01_0_n_n_wf

class Facts : Prop extends Facts₀ where

variable [Facts]
-- ==== Proof.Finite.lean ====
/-
  The precondition, decoded: every entry of the three argument arrays is a finite extended real, so each minus itself is zero.

  The precondition is the conjunction of three tests "all |x| < +∞", one per array.  On the extended reals |x| = max x (-x)
  is +∞ exactly at the two infinities, so the test at an entry says that entry is neither, and for such x,  x - x = 0.
-/
import proofs.«104330_j46222438039739_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic

theorem ofBool_eq_one (b : Bool) : BitVec.ofBool b = 1#1 ↔ b = true := by cases b <;> decide
theorem andi_one : ∀ (a b : BitVec 1), IntOp.andi a b = 1#1 ↔ a = 1#1 ∧ b = 1#1 := by decide

/-- An extended real whose absolute value is below +∞ is finite: it minus itself is zero. -/
theorem sub_self_of_abs_lt (x : EReal) (h : Ideal.cmp .olt (max x (-x)) (Ideal.ofBits .f32 0x7F800000#32) = 1#1) :
    x - x = 0 := by
  have htop : Ideal.ofBits .f32 0x7F800000#32 = ⊤ := by simp [Ideal.ofBits, Ideal.ieee]
  rw [htop] at h
  unfold Ideal.cmp at h
  rw [ofBool_eq_one] at h
  simp only [decide_eq_true_eq] at h
  have h1 : x ≠ ⊤ := fun e => by rw [e] at h; simp at h
  have h2 : x ≠ ⊥ := fun e => by rw [e] at h; simp at h
  exact EReal.sub_self h1 h2

instance : Subsingleton Cert.Pre_finite_inputs.S_.Idx := ⟨fun a b => funext fun d => d.elim0⟩

open Cert.Pre_finite_inputs in
/-- The precondition at three arrays says every entry of each is finite. -/
theorem of_pre [Cert.Pre_finite_inputs.Facts] (x0 : FVec Ideal S2x4096x16384 .f32) (x1 : FVec Ideal S4096x16384 .f32)
    (x2 : FVec Ideal S4096 .f32) (h : Cert.Pre_finite_inputs.fn (F := Ideal) x0 x1 x2 = fun _ => 1#1) :
    (∀ j, x0 j - x0 j = 0) ∧ (∀ j, x1 j - x1 j = 0) ∧ (∀ j, x2 j - x2 j = 0) := by
  have e := congrFun h ValueIdx.ix0
  unfold Cert.Pre_finite_inputs.fn at e
  dsimp only at e
  simp only [andi, andi_one] at e
  obtain ⟨⟨e0, e1⟩, e2⟩ := e
  refine ⟨fun j => ?_, fun j => ?_, fun j => ?_⟩
  · exact sub_self_of_abs_lt _ (Host.reduce_andi_all _ _ _ _ _ e0 j)
  · exact sub_self_of_abs_lt _ (Host.reduce_andi_all _ _ _ _ _ e1 j)
  · exact sub_self_of_abs_lt _ (Host.reduce_andi_all _ _ _ _ _ e2 j)

end Cert.Finite

end
-- ==== Proof.SplitAlgebra.lean ====
/-
  Extended-real algebra for a contraction that is computed in three passes and accumulated block by block.

  * Three passes.  An operand x is split as x = hi + lo with hi = x and lo = x - x.  For a finite x the residual lo is 0, so
    the three partial products  hi·hi' + hi·lo' + lo·hi'  collapse to the single product: the second and third sums are
    sums of zeros.  Only  x - x = 0  is used, which on the extended reals holds exactly for finite x.
  * Blocks.  A sum over 16384 terms taken as 16 consecutive blocks of 1024: the running value after block k is the sum of
    the first 1024·(k+1) terms, and the bias is added with the last block.  Only associativity of + is used.
-/
import Idealize.ShloMosaic.PureOps.Ideal
import Mathlib.Algebra.BigOperators.Fin

noncomputable section

open scoped BigOperators

namespace Cert.SplitAlgebra

/-- Accumulating the three partial products of split operands whose residuals vanish adds the single product. -/
theorem three_pass {K : ℕ} (a b : Fin K → EReal) (ha : ∀ l, a l - a l = 0) (hb : ∀ l, b l - b l = 0) (acc : EReal) :
    acc + ((∑ l, a l * b l + ∑ l, a l * (b l - b l)) + ∑ l, (a l - a l) * b l) = acc + ∑ l, a l * b l := by
  simp only [ha, hb, mul_zero, zero_mul, Finset.sum_const_zero, add_zero]

/-- A finite extended real minus itself is zero. -/
theorem sub_self_of_finite {x : EReal} (h1 : x ≠ ⊤) (h2 : x ≠ ⊥) : x - x = 0 := EReal.sub_self h1 h2

/-- Term n of the contraction of two rows of length K, zero past the end. -/
def term {K : ℕ} (u v : Fin K → EReal) (n : ℕ) : EReal := if h : n < K then u ⟨n, h⟩ * v ⟨n, h⟩ else 0

theorem term_of_lt {K : ℕ} (u v : Fin K → EReal) (n : ℕ) (h : n < K) : term u v n = u ⟨n, h⟩ * v ⟨n, h⟩ := dif_pos h

/-- The running value after block k of 16: the first 1024·(k+1) terms, and the bias once the last block is in. -/
def running (u v : Fin 16384 → EReal) (bias : EReal) (k : ℕ) : EReal :=
  (∑ n ∈ Finset.range (1024 * (k + 1)), term u v n) + (if k = 15 then bias else 0)

/-- One more block of 1024 terms. -/
theorem range_block (f : ℕ → EReal) (k : ℕ) :
    ∑ n ∈ Finset.range (1024 * (k + 1)), f n = ∑ n ∈ Finset.range (1024 * k), f n + ∑ l : Fin 1024, f (1024 * k + l.val) := by
  rw [Nat.mul_succ, Finset.sum_range_add, Finset.sum_range (fun l => f (1024 * k + l))]

/-- The first block, accumulated into zero. -/
theorem running_first (u v : Fin 16384 → EReal) (bias : EReal) :
    (0 : EReal) + ∑ l : Fin 1024, term u v (1024 * 0 + l.val) = running u v bias 0 := by
  unfold running
  rw [range_block, if_neg (by decide), Nat.mul_zero, Finset.range_zero, Finset.sum_empty, add_zero]

/-- A middle block. -/
theorem running_step (u v : Fin 16384 → EReal) (bias : EReal) (k : ℕ) (h0 : k ≠ 15) (h1 : k + 1 ≠ 15) :
    running u v bias k + ∑ l : Fin 1024, term u v (1024 * (k + 1) + l.val) = running u v bias (k + 1) := by
  unfold running
  rw [range_block (term u v) (k + 1), if_neg h0, if_neg h1, add_zero, add_zero]

/-- The last block, then the bias. -/
theorem running_last (u v : Fin 16384 → EReal) (bias : EReal) :
    (running u v bias 14 + ∑ l : Fin 1024, term u v (1024 * 15 + l.val)) + bias = running u v bias 15 := by
  unfold running
  rw [range_block (term u v) 15, if_neg (by decide), if_pos rfl, add_zero]

/-- After the last block the running value is the whole contraction plus the bias. -/
theorem running_final (u v : Fin 16384 → EReal) (bias : EReal) :
    running u v bias 15 = (∑ n : Fin 16384, u n * v n) + bias := by
  unfold running
  rw [if_pos rfl, show 1024 * (15 + 1) = 16384 from rfl, Finset.sum_range]
  exact congrArg (· + bias) (Finset.sum_congr rfl fun n _ => term_of_lt u v n.val n.isLt)

end Cert.SplitAlgebra

end
-- ==== Proof.Blocks.lean ====
/-
  The blocks the kernel body reads at a grid point, as entries of the arrays.

  The grid has 8·4·16 points; point t has row-block t / 64, column-block (t / 16) mod 4 and reduction step t mod 16.  At t the
  input block is rows 1024·(t/64) … of columns 1024·(t mod 16) … of the flattened input, the weight block rows
  1024·((t/16) mod 4) … of the same columns of the weight matrix, and the bias block columns 1024·((t/16) mod 4) … of
  the bias row.  So the product of row p of the input block with row q of the weight block is a run of 1024 consecutive
  terms of the contraction of a row of the input with a row of the weight matrix.
-/
import proofs.«104330_j46222438039739_2_alg».proof.Proof.Gen.KernelIdeal.Frame
import proofs.«104330_j46222438039739_2_alg».proof.Proof.SplitAlgebra
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx

/-- The block indices of the four windows at every grid point. -/
theorem index_maps : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val / 16 % 4
    ∧ win0_3.index t (0 : Fin 2) = t.val / 64 ∧ win0_3.index t (1 : Fin 2) = t.val / 16 % 4 :=
  (by decide +kernel : ∀ t : Fin grid0.N, _)

section
variable {F : FTy → Type} [FloatOps F]
variable (m : (ℓ : Loc nD τ sig) → Buf (Elt F) ℓ)

/-- Entry (p, l) of the input block at t is entry (1024·(t/64) + p, 1024·(t mod 16) + l) of the flattened input. -/
theorem input_entry (c : Dev nD) (t : Fin cfg0.N) (p l : Fin 1024) (r : Fin 8192) (z : Fin 16384)
    (hr : r.val = 1024 * (t.val / 64) + p.val) (hz : z.val = 1024 * (t.val % 16) + l.val) :
    (iblk m c 0 t : Vec F S1024x1024 .f32) (ix2 p l) = V m c main_v0 (ix2 r z) := by
  obtain ⟨e0, e1, -⟩ := index_maps t
  unfold iblk
  rw [View.read_apply]
  show V m c main_v0 (((cfg0.win 0).blk t).view.emb (ix2 p l)) = V m c main_v0 (ix2 r z)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 1024 + 1 * l.val = z.val; omega

/-- Entry (q, l) of the weight block at t is entry (1024·((t/16) mod 4) + q, 1024·(t mod 16) + l) of the weight matrix. -/
theorem weight_entry (c : Dev nD) (t : Fin cfg0.N) (q l : Fin 1024) (o : Fin 4096) (z : Fin 16384)
    (ho : o.val = 1024 * (t.val / 16 % 4) + q.val) (hz : z.val = 1024 * (t.val % 16) + l.val) :
    (iblk m c 1 t : Vec F S1024x1024 .f32) (ix2 q l) = V m c main_arg1 (ix2 o z) := by
  obtain ⟨-, -, e0, e1, -⟩ := index_maps t
  unfold iblk
  rw [View.read_apply]
  show V m c main_arg1 (((cfg0.win 1).blk t).view.emb (ix2 q l)) = V m c main_arg1 (ix2 o z)
  refine congrArg (V m c main_arg1) (funext fun a => Fin.ext ?_)
  match a with
  | ⟨0, _⟩ => show win0_1.index t (0 : Fin 2) * 1024 + 1 * q.val = o.val; omega
  | ⟨1, _⟩ => show win0_1.index t (1 : Fin 2) * 1024 + 1 * l.val = z.val; omega

/-- Entry (0, q) of the bias block at t is entry (0, 1024·((t/16) mod 4) + q) of the bias row. -/
theorem bias_entry (c : Dev nD) (t : Fin cfg0.N) (q : Fin 1024) (o : Fin 4096)
    (ho : o.val = 1024 * (t.val / 16 % 4) + q.val) :
    (iblk m c 2 t : Vec F S1x1024 .f32) (ix2 (0 : Fin 1) q) = V m c main_v1 (ix2 (0 : Fin 1) o) := by
  obtain ⟨-, -, -, -, e0, e1, -⟩ := index_maps t
  unfold iblk
  rw [View.read_apply]
  show V m c main_v1 (((cfg0.win 2).blk t).view.emb (ix2 (0 : Fin 1) q)) = V m c main_v1 (ix2 (0 : Fin 1) o)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

end

section
variable (m : (ℓ : Loc nD τ sig) → Buf (Elt Ideal) ℓ)

/-- The flattened input, the weight matrix and the bias row as the kernel finds them, and the three blocks read at a point, as
    arrays of extended reals. -/
abbrev flatInput (c : Dev nD) : S8192x16384.Idx → EReal := V m c main_v0
abbrev weights (c : Dev nD) : S4096x16384.Idx → EReal := V m c main_arg1
abbrev biasRow (c : Dev nD) : S1x4096.Idx → EReal := V m c main_v1
abbrev inputBlock (c : Dev nD) (t : Fin cfg0.N) : S1024x1024.Idx → EReal := iblk m c 0 t
abbrev weightBlock (c : Dev nD) (t : Fin cfg0.N) : S1024x1024.Idx → EReal := iblk m c 1 t
abbrev biasBlock (c : Dev nD) (t : Fin cfg0.N) : S1x1024.Idx → EReal := iblk m c 2 t

/-- A block of an array of finite entries has finite entries: each minus itself is zero. -/
theorem input_finite (c : Dev nD) (hX : ∀ j, flatInput m c j - flatInput m c j = 0) (t : Fin cfg0.N)
    (j : S1024x1024.Idx) : inputBlock m c t j - inputBlock m c t j = 0 := by
  have e : inputBlock m c t j = flatInput m c (((cfg0.win 0).blk t).view.emb j) := by
    unfold inputBlock iblk
    rw [View.read_apply]
    rfl
  rw [e]
  exact hX _

theorem weight_finite (c : Dev nD) (hW : ∀ j, weights m c j - weights m c j = 0) (t : Fin cfg0.N)
    (j : S1024x1024.Idx) : weightBlock m c t j - weightBlock m c t j = 0 := by
  have e : weightBlock m c t j = weights m c (((cfg0.win 1).blk t).view.emb j) := by
    unfold weightBlock iblk
    rw [View.read_apply]
    rfl
  rw [e]
  exact hW _

/-- Row p of the input block against row q of the weight block at t: terms 1024·(t mod 16) … of the contraction of row r of the
    flattened input with row o of the weight matrix. -/
theorem block_product (c : Dev nD) (t : Fin cfg0.N) (p q : Fin 1024) (r : Fin 8192) (o : Fin 4096)
    (hr : r.val = 1024 * (t.val / 64) + p.val) (ho : o.val = 1024 * (t.val / 16 % 4) + q.val) :
    ∑ l : Fin 1024, inputBlock m c t (ix2 p l) * weightBlock m c t (ix2 q l)
      = ∑ l : Fin 1024, Cert.SplitAlgebra.term (fun z => flatInput m c (ix2 r z)) (fun z => weights m c (ix2 o z))
          (1024 * (t.val % 16) + l.val) := by
  refine Finset.sum_congr rfl fun l _ => ?_
  have hl : 1024 * (t.val % 16) + l.val < 16384 := by have := l.isLt; omega
  rw [Cert.SplitAlgebra.term_of_lt _ _ _ hl]
  have e1 : inputBlock m c t (ix2 p l) = flatInput m c (ix2 r ⟨_, hl⟩) := input_entry m c t p l r ⟨_, hl⟩ hr rfl
  have e2 : weightBlock m c t (ix2 q l) = weights m c (ix2 o ⟨_, hl⟩) := weight_entry m c t q l o ⟨_, hl⟩ ho rfl
  rw [e1, e2]

/-- The bias block's entry q at t is the bias row's entry 1024·((t/16) mod 4) + q. -/
theorem bias_block (c : Dev nD) (t : Fin cfg0.N) (q : Fin 1024) (o : Fin 4096)
    (ho : o.val = 1024 * (t.val / 16 % 4) + q.val) :
    biasBlock m c t (ix2 (0 : Fin 1) q) = biasRow m c (ix2 (0 : Fin 1) o) := bias_entry m c t q o ho

end

end Cert.KernelIdeal.Blocks

end
-- ==== Proof.CaseValues.lean ====
/-
  What the kernel body leaves in the output block in each of its three control cases, as a value of the input blocks.

  * first reduction step (k = 0): the block is reset to zero and the step's product is accumulated into that zero;
  * a middle step: the step's product is accumulated into what the step before left;
  * last step (k = 15): the product is accumulated and then the bias row is added.
  Each store covers the whole block, so the block ends at the last store's value, and a load that follows a store reads that
  store's value.
-/
import proofs.«104330_j46222438039739_2_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem

variable {F : FTy → Type} [FloatOps F]

theorem zeros2 : (![0, 0] : Fin 2 → Nat) = fun _ => 0 := funext fun a => by fin_cases a <;> rfl

/-- A middle step leaves the accumulation of its blocks into the previous contents. -/
theorem middle (c : Dev nD) (i : grid0.Coords) (arg3 : Memref sig .tc .vmem S1024x1024 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1024x1024 .f32) (harg6 : arg6.IsWhole) (hc0 : ¬cond0_0 i) (hc1 : ¬cond0_1 i)
    (x0 x1 : Vec F S1024x1024 .f32) (x2 : Vec F S1x1024 .f32) (xo3 : Vec F S1024x1024 .f32) :
    out0_B_3 c i arg3 harg3 arg4 harg4 arg5 harg5 arg6 harg6 hc0 hc1 x0 x1 x2 xo3 = k0_pay2 x0 x1 xo3 := by
  unfold out0_B_3
  rw [View.read_writes_eq_canon _ _ _ (cover0_B_3 c i arg3 harg3 arg4 harg4 arg5 harg5 arg6 harg6 hc0 hc1 x0 x1 x2 xo3)]
  unfold kernelRun0_B
  dsimp only
  sl_unfold_words
  rw [View.canon_unit_zero zeros2]
  simp only [View.readAt_eq_ld, harg3.read_unread, harg4.read_unread, harg6.read_unread, View.ld_unit_zero (S := S1024x1024) zeros2]

/-- The first step leaves the accumulation of its blocks into the reset value. -/
theorem first (c : Dev nD) (i : grid0.Coords) (arg3 : Memref sig .tc .vmem S1024x1024 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1024x1024 .f32) (harg6 : arg6.IsWhole) (hc0 : cond0_0 i) (hc1 : ¬cond0_1 i)
    (x0 x1 : Vec F S1024x1024 .f32) (x2 : Vec F S1x1024 .f32) :
    out0_A_3 c i arg3 harg3 arg4 harg4 arg5 harg5 arg6 harg6 hc0 hc1 x0 x1 x2 = k0_pay2 x0 x1 (k0_pay1 (F := F)) := by
  unfold out0_A_3
  rw [View.read_writes_eq_canon _ _ _ (cover0_A_3 c i arg3 harg3 arg4 harg4 arg5 harg5 arg6 harg6 hc0 hc1 x0 x1 x2)]
  unfold kernelRun0_A
  dsimp only
  sl_unfold_words
  rw [View.canon_cons_unit_zero (S := S1024x1024) zeros2, View.readCov_unit_zero (S := S1024x1024) _ zeros2]
  simp only [View.readAt_eq_ld, harg3.read_unread, harg4.read_unread, View.ld_unit_zero (S := S1024x1024) zeros2]

/-- The last step leaves the accumulation of its blocks into the previous contents, plus the bias row. -/
theorem last (c : Dev nD) (i : grid0.Coords) (arg3 : Memref sig .tc .vmem S1024x1024 .f32) (harg3 : arg3.IsWhole)
    (arg4 : Memref sig .tc .vmem S1024x1024 .f32) (harg4 : arg4.IsWhole) (arg5 : Memref sig .tc .vmem S1x1024 .f32) (harg5 : arg5.IsWhole)
    (arg6 : Memref sig .tc .vmem S1024x1024 .f32) (harg6 : arg6.IsWhole) (hc0 : ¬cond0_0 i) (hc1 : cond0_1 i)
    (x0 x1 : Vec F S1024x1024 .f32) (x2 : Vec F S1x1024 .f32) (xo3 : Vec F S1024x1024 .f32) :
    out0_C_3 c i arg3 harg3 arg4 harg4 arg5 harg5 arg6 harg6 hc0 hc1 x0 x1 x2 xo3 = k0_pay3 (k0_pay2 x0 x1 xo3) x2 := by
  unfold out0_C_3
  rw [View.read_writes_eq_canon _ _ _ (cover0_C_3 c i arg3 harg3 arg4 harg4 arg5 harg5 arg6 harg6 hc0 hc1 x0 x1 x2 xo3)]
  unfold kernelRun0_C
  dsimp only
  sl_unfold_words
  rw [View.canon_cons_unit_zero (S := S1024x1024) zeros2, View.readCov_unit_zero (S := S1024x1024) _ zeros2]
  simp only [View.readAt_eq_ld, harg3.read_unread, harg4.read_unread, harg5.read_unread, harg6.read_unread,
    View.ld_unit_zero (S := S1024x1024) zeros2, View.ld_unit_zero (S := S1x1024) zeros2]

end Cert.KernelIdeal.CaseValues

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.Payloads.lean ====
/-
  The three values the kernel body stores, read at an entry (p, q) of the 1024×1024 output block, over the extended reals.

  * the reset value: 0;
  * the accumulation: the block's previous entry plus the three partial products of the split operands, each a sum over the
    1024 columns l of a row p of the input block against a row q of the weight block — a change of float format is the
    identity here, so the high parts are the operands and the residuals are  x - x;
  * the bias step: the block's entry plus the bias row's entry q.
-/
import proofs.«104330_j46222438039739_2_alg».proof.Proof.Gen.KernelIdeal.Skeleton
import proofs.«104330_j46222438039739_2_alg».proof.Proof.LibMatmulNT
import proofs.«104330_j46222438039739_2_alg».proof.Proof.SplitAlgebra
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The reset stores zero. -/
theorem reset_apply (j : S1024x1024.Idx) : k0_pay1 (F := Ideal) j = 0 := by
  unfold k0_pay1
  exact Ideal.ofBits_zero_f32

/-- The accumulation at (p, q), the residuals still written out. -/
theorem accumulate_apply_raw (a b acc : Vec Ideal S1024x1024 .f32) (p q : Fin 1024) :
    k0_pay2 (F := Ideal) a b acc (ix2 p q)
      = acc (ix2 p q) + ((∑ l : Fin 1024, a (ix2 p l) * b (ix2 q l)
          + ∑ l : Fin 1024, a (ix2 p l) * (b (ix2 q l) - b (ix2 q l)))
          + ∑ l : Fin 1024, (a (ix2 p l) - a (ix2 p l)) * b (ix2 q l)) := by
  unfold k0_pay2
  simp only [shapeCast_self]
  rw [addf_apply, addf_apply, addf_apply]
  have e : ∀ l r : FVec Ideal S1024x1024 .bf16,
      matmul dot_S1024x1024_S1024x1024_S1024x1024_1_1_0_0_n_n none l r (constant (F := Ideal) S1024x1024 .f32 0x00000000#32) (ix2 p q)
        = ∑ k : Fin 1024, l (ix2 p k) * r (ix2 q k) := fun l r =>
    Cert.LibMatmulNT.matmul_nt_zero_apply (M := 1024) (K := 1024) (N := 1024)
      dot_S1024x1024_S1024x1024_S1024x1024_1_1_0_0_n_n rfl none l r p q
  rw [e, e, e]
  rfl

/-- The accumulation at (p, q) of blocks whose entries are finite: the previous entry plus the row-by-row product. -/
theorem accumulate_apply (a b acc : Vec Ideal S1024x1024 .f32)
    (ha : ∀ j : S1024x1024.Idx, a j - a j = 0) (hb : ∀ j : S1024x1024.Idx, b j - b j = 0) (p q : Fin 1024) :
    k0_pay2 (F := Ideal) a b acc (ix2 p q) = acc (ix2 p q) + ∑ l : Fin 1024, a (ix2 p l) * b (ix2 q l) := by
  rw [accumulate_apply_raw]
  exact Cert.SplitAlgebra.three_pass (fun l => a (ix2 p l)) (fun l => b (ix2 q l)) (fun l => ha _) (fun l => hb _) _

/-- The bias step at (p, q). -/
theorem bias_apply (acc : Vec Ideal S1024x1024 .f32) (bias : Vec Ideal S1x1024 .f32) (p q : Fin 1024) :
    k0_pay3 (F := Ideal) acc bias (ix2 p q) = acc (ix2 p q) + bias (ix2 (0 : Fin 1) q) := by
  unfold k0_pay3
  simp only [shapeCast_self]
  rw [addf_apply, broadcastTo_1b_ab_apply]

end Cert.KernelIdeal.Payloads

end
-- ==== Proof.Accumulated.lean ====
/-
  What the output block holds after each grid point.

  Point t works on output block (t / 64, (t / 16) mod 4) at reduction step k = t mod 16.  After it, entry (p, q) of the block is
  the sum of the first 1024·(k+1) terms of the contraction of row 1024·(t/64) + p of the flattened input with row
  1024·((t/16) mod 4) + q of the weight matrix, plus the bias entry of that output column once k = 15.  By induction on the
  point: step 0 starts from the reset value 0, every later step adds its block's 1024 terms to what the point before left,
  and the last one then adds the bias.  The inputs' finiteness is used once per step, to discard the residual passes.
-/
import proofs.«104330_j46222438039739_2_alg».proof.Proof.Blocks
import proofs.«104330_j46222438039739_2_alg».proof.Proof.CaseValues
import proofs.«104330_j46222438039739_2_alg».proof.Proof.Payloads

noncomputable section

open scoped BigOperators

namespace Cert.KernelIdeal.Accumulated

open Cert.KernelIdeal Cert.KernelIdeal.Gen Cert.KernelIdeal.Blocks Cert.SplitAlgebra
open Idealize.ShloMosaic Idealize.ShloMosaic.TcCoe Idealize.SL.Sem Idealize.ShloMosaic.ValueIdx

variable (m : (ℓ : Loc nD τ sig) → Buf (Elt Ideal) ℓ)

/-- The running value of output entry (r, o) after reduction step k. -/
abbrev value (c : Dev nD) (r : Fin 8192) (o : Fin 4096) (k : ℕ) : EReal :=
  running (fun z => flatInput m c (ix2 r z)) (fun z => weights m c (ix2 o z)) (biasRow m c (ix2 (0 : Fin 1) o)) k

/-- The block after point n, as an array of extended reals. -/
abbrev blockAfter (c : Dev nD) (n : ℕ) (h : n < cfg0.N) : S1024x1024.Idx → EReal := outsAt0 m c n h

/-- A first step (k = 0). -/
theorem first_step (c : Dev nD) (hX : ∀ j, flatInput m c j - flatInput m c j = 0) (hW : ∀ j, weights m c j - weights m c j = 0)
    (t : Fin cfg0.N) (h0 : t.val % 16 = 0) (p q : Fin 1024) (r : Fin 8192) (o : Fin 4096)
    (hr : r.val = 1024 * (t.val / 64) + p.val) (ho : o.val = 1024 * (t.val / 16 % 4) + q.val) :
    blockAfter m c t.val t.isLt (ix2 p q) = value m c r o (t.val % 16) := by
  have h1 : ¬t.val % 16 = 15 := by omega
  have hv := (outsAt0_A m c t h0 h1).trans
    (CaseValues.first (F := Ideal) c (grid0.coords t) (ms0_0 t) (hs0_0 t) (ms0_1 t) (hs0_1 t) (ms0_2 t) (hs0_2 t) (ms0_3 t) (hs0_3 t)
      ((hcond0_0 t).mpr h0) (fun h => h1 ((hcond0_1 t).mp h)) (iblk m c 0 t) (iblk m c 1 t) (iblk m c 2 t))
  refine (congrFun hv (ix2 p q)).trans ?_
  refine (Payloads.accumulate_apply (inputBlock m c t) (weightBlock m c t) (k0_pay1 (F := Ideal))
    (input_finite m c hX t) (weight_finite m c hW t) p q).trans ?_
  rw [Payloads.reset_apply, block_product m c t p q r o hr ho, h0]
  exact running_first _ _ _

/-- A middle step (0 < k < 15), given the value the point before left. -/
theorem middle_step (c : Dev nD) (hX : ∀ j, flatInput m c j - flatInput m c j = 0) (hW : ∀ j, weights m c j - weights m c j = 0)
    (t : Fin cfg0.N) (h0 : ¬t.val % 16 = 0) (h1 : ¬t.val % 16 = 15)
    (ih : ∀ (h' : t.val - 1 < cfg0.N) (p q : Fin 1024) (r : Fin 8192) (o : Fin 4096),
      r.val = 1024 * ((t.val - 1) / 64) + p.val → o.val = 1024 * ((t.val - 1) / 16 % 4) + q.val →
      blockAfter m c (t.val - 1) h' (ix2 p q) = value m c r o ((t.val - 1) % 16))
    (p q : Fin 1024) (r : Fin 8192) (o : Fin 4096)
    (hr : r.val = 1024 * (t.val / 64) + p.val) (ho : o.val = 1024 * (t.val / 16 % 4) + q.val) :
    blockAfter m c t.val t.isLt (ix2 p q) = value m c r o (t.val % 16) := by
  have hlt : t.val - 1 < cfg0.N := Nat.lt_of_le_of_lt (Nat.sub_le _ _) t.isLt
  have hv := (outsAt0_B m c t h0 h1).trans
    (CaseValues.middle (F := Ideal) c (grid0.coords t) (ms0_0 t) (hs0_0 t) (ms0_1 t) (hs0_1 t) (ms0_2 t) (hs0_2 t) (ms0_3 t) (hs0_3 t)
      (fun h => h0 ((hcond0_0 t).mp h)) (fun h => h1 ((hcond0_1 t).mp h)) (iblk m c 0 t) (iblk m c 1 t) (iblk m c 2 t)
      (outsAt0 m c (t.val - 1) hlt))
  refine (congrFun hv (ix2 p q)).trans ?_
  refine (Payloads.accumulate_apply (inputBlock m c t) (weightBlock m c t) (blockAfter m c (t.val - 1) hlt)
    (input_finite m c hX t) (weight_finite m c hW t) p q).trans ?_
  rw [ih hlt p q r o (by omega) (by omega), block_product m c t p q r o hr ho]
  have hk : t.val % 16 = (t.val - 1) % 16 + 1 := by omega
  rw [hk]
  exact running_step _ _ _ _ (by omega) (by omega)

/-- A last step (k = 15), given the value the point before left. -/
theorem last_step (c : Dev nD) (hX : ∀ j, flatInput m c j - flatInput m c j = 0) (hW : ∀ j, weights m c j - weights m c j = 0)
    (t : Fin cfg0.N) (h0 : ¬t.val % 16 = 0) (h1 : t.val % 16 = 15)
    (ih : ∀ (h' : t.val - 1 < cfg0.N) (p q : Fin 1024) (r : Fin 8192) (o : Fin 4096),
      r.val = 1024 * ((t.val - 1) / 64) + p.val → o.val = 1024 * ((t.val - 1) / 16 % 4) + q.val →
      blockAfter m c (t.val - 1) h' (ix2 p q) = value m c r o ((t.val - 1) % 16))
    (p q : Fin 1024) (r : Fin 8192) (o : Fin 4096)
    (hr : r.val = 1024 * (t.val / 64) + p.val) (ho : o.val = 1024 * (t.val / 16 % 4) + q.val) :
    blockAfter m c t.val t.isLt (ix2 p q) = value m c r o (t.val % 16) := by
  have hlt : t.val - 1 < cfg0.N := Nat.lt_of_le_of_lt (Nat.sub_le _ _) t.isLt
  have hv := (outsAt0_C m c t h0 h1).trans
    (CaseValues.last (F := Ideal) c (grid0.coords t) (ms0_0 t) (hs0_0 t) (ms0_1 t) (hs0_1 t) (ms0_2 t) (hs0_2 t) (ms0_3 t) (hs0_3 t)
      (fun h => h0 ((hcond0_0 t).mp h)) ((hcond0_1 t).mpr h1) (iblk m c 0 t) (iblk m c 1 t) (iblk m c 2 t)
      (outsAt0 m c (t.val - 1) hlt))
  refine (congrFun hv (ix2 p q)).trans ?_
  refine (Payloads.bias_apply (k0_pay2 (F := Ideal) (iblk m c 0 t) (iblk m c 1 t) (outsAt0 m c (t.val - 1) hlt)) (biasBlock m c t) p q).trans ?_
  refine (congrArg (· + biasBlock m c t (ix2 (0 : Fin 1) q))
    (Payloads.accumulate_apply (inputBlock m c t) (weightBlock m c t) (blockAfter m c (t.val - 1) hlt)
      (input_finite m c hX t) (weight_finite m c hW t) p q)).trans ?_
  rw [ih hlt p q r o (by omega) (by omega), block_product m c t p q r o hr ho, bias_block m c t q o ho]
  have hk : (t.val - 1) % 16 = 14 := by omega
  rw [hk, h1]
  exact running_last _ _ _

/-- After every point, by induction on the point. -/
theorem block_after (c : Dev nD) (hX : ∀ j, flatInput m c j - flatInput m c j = 0) (hW : ∀ j, weights m c j - weights m c j = 0) :
    ∀ (n : ℕ) (h : n < cfg0.N) (p q : Fin 1024) (r : Fin 8192) (o : Fin 4096),
      r.val = 1024 * (n / 64) + p.val → o.val = 1024 * (n / 16 % 4) + q.val →
      blockAfter m c n h (ix2 p q) = value m c r o (n % 16)
  | 0, h => first_step m c hX hW ⟨0, h⟩ rfl
  | n + 1, h => by
    by_cases h0 : (n + 1) % 16 = 0
    · exact first_step m c hX hW ⟨n + 1, h⟩ h0
    · by_cases h1 : (n + 1) % 16 = 15
      · exact last_step m c hX hW ⟨n + 1, h⟩ h0 h1 (fun h' => block_after c hX hW n h')
      · exact middle_step m c hX hW ⟨n + 1, h⟩ h0 h1 (fun h' => block_after c hX hW n h')

end Cert.KernelIdeal.Accumulated

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.Entry.lean ====
/-
  The arrays as the kernel finds them: the input [2, 4096, 16384] flattened to the matrix [8192, 16384] whose row b·4096 + s is the
  input's row (b, s); the weight matrix as given; the bias vector as the one-row matrix [1, 4096].  Entries of finite arrays
  are finite.
-/
import proofs.«104330_j46222438039739_2_alg».proof.Proof.Blocks
import proofs.«104330_j46222438039739_2_alg».proof.Proof.LibRows
import Idealize.ShloMosaic.Lib.StableHlo.Run
import Idealize.ShloMosaic.Lib.ValueLayout
import Idealize.ShloMosaic.Lib.Tactic

noncomputable section

namespace Cert.KernelIdeal.Entry

open Cert.KernelIdeal Cert.KernelIdeal.Gen Cert.KernelIdeal.Blocks Idealize.ShloMosaic Idealize.ShloMosaic.TcCoe Idealize.SL.Sem
open Idealize.ShloMosaic.ValueIdx

variable (m : (ℓ : Loc nD τ sig) → Buf (Elt Ideal) ℓ)

/-- The three argument arrays as launched, as arrays of extended reals. -/
abbrev input (c : Dev nD) : S2x4096x16384.Idx → EReal := m ((c : Thread nD τ).loc main_arg0)
abbrev weight (c : Dev nD) : S4096x16384.Idx → EReal := m ((c : Thread nD τ).loc main_arg1)
abbrev bias (c : Dev nD) : S4096.Idx → EReal := m ((c : Thread nD τ).loc main_arg2)

/-- The kernel's first operand is the input flattened. -/
theorem flatInput_eq (c : Dev nD) :
    flatInput m c = shapeCast S8192x16384 (input m c) Facts₀.shapeCasts_S2x4096x16384_S8192x16384 := by
  show StableHlo.after hostOps0 (fun b => m (c, b)) (Proc.devRef .tc main_v0) = _
  after_results
  rfl

/-- Its third operand is the bias as a one-row matrix. -/
theorem biasRow_eq (c : Dev nD) :
    biasRow m c = shapeCast S1x4096 (bias m c) Facts₀.shapeCasts_S4096_S1x4096 := by
  show StableHlo.after hostOps0 (fun b => m (c, b)) (Proc.devRef .tc main_v1) = _
  after_results
  rfl

/-- Its second operand is the weight matrix. -/
theorem weights_eq (c : Dev nD) : weights m c = weight m c := V_main_arg1 m c

/-- Row b·4096 + s of the flattened input is row (b, s) of the input. -/
theorem flatInput_apply (c : Dev nD) (b : Fin 2) (s : Fin 4096) (z : Fin 16384) (r : Fin 8192)
    (hr : r.val = b.val * 4096 + s.val) : flatInput m c (ix2 r z) = input m c (ix3 b s z) := by
  rw [flatInput_eq]
  exact Cert.LibRows.flatten_rows_apply (input m c) _ b s z r hr

/-- Entry (0, o) of the bias row is entry o of the bias. -/
theorem biasRow_apply (c : Dev nD) (o : Fin 4096) : biasRow m c (ix2 (0 : Fin 1) o) = bias m c (ix1 o) := by
  rw [biasRow_eq]
  exact shapeCast_a_1a_apply (bias m c) _ 0 o

/-- A flattened finite input is finite. -/
theorem flatInput_finite (c : Dev nD) (h : ∀ j, input m c j - input m c j = 0) (j : S8192x16384.Idx) :
    flatInput m c j - flatInput m c j = 0 := by
  rw [flatInput_eq]
  unfold shapeCast
  exact h _

theorem weights_finite (c : Dev nD) (h : ∀ j, weight m c j - weight m c j = 0) (j : S4096x16384.Idx) :
    weights m c j - weights m c j = 0 := by
  rw [weights_eq]
  exact h _

end Cert.KernelIdeal.Entry

end
-- ==== Proof.Spec.lean ====
/-
  The function both programs compute: a linear layer.  For input x [2, 4096, 16384], weight w [4096, 16384] and bias b [4096],
  entry (n, s, o) of the result is  Σ_z x(n, s, z) · w(o, z)  +  b(o),  on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The linear layer, entry by entry. -/
def linear (x : (⟨3, ![2, 4096, 16384]⟩ : Shape).Idx → EReal) (w : (⟨2, ![4096, 16384]⟩ : Shape).Idx → EReal)
    (b : (⟨1, ![4096]⟩ : Shape).Idx → EReal) : (⟨3, ![2, 4096, 4096]⟩ : Shape).Idx → EReal :=
  fun i => (∑ z : Fin 16384, x (ix3 (i 0) (i 1) z) * w (ix2 (i 2) z)) + b (ix1 (i 2))

end Cert.Spec

end
-- ==== Proof.Result.lean ====
/-
  The kernel's result array.

  The output window's block (t / 64, (t / 16) mod 4) is written back after the last reduction step of that block, t mod 16 = 15,
  holding at (p, q) the whole contraction of input row 1024·(t/64) + p with weight row 1024·((t/16) mod 4) + q plus the bias
  entry: that is the block of ONE matrix, the flattened input times the transposed weight matrix plus the bias row.  The 32
  written-back blocks tile the [8192, 4096] array, so it ends as that matrix; the operation after the call re-lays it as
  [2, 4096, 4096], which read at (n, s, o) is row n·4096 + s, column o.
-/
import proofs.«104330_j46222438039739_2_alg».proof.Proof.Accumulated
import proofs.«104330_j46222438039739_2_alg».proof.Proof.Entry
import proofs.«104330_j46222438039739_2_alg».proof.Proof.Spec
import Idealize.ShloMosaic.Lib.StableHlo.Run
import Idealize.ShloMosaic.Lib.Tactic

noncomputable section

open scoped BigOperators

namespace Cert.KernelIdeal.Result

open Cert.KernelIdeal Cert.KernelIdeal.Gen Cert.KernelIdeal.Blocks Cert.KernelIdeal.Accumulated Cert.KernelIdeal.Entry Cert.SplitAlgebra
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The matrix the call leaves: flattened input times transposed weights, plus the bias row. -/
abbrev product (c : Dev nD) : S8192x4096.Idx → EReal := fun j =>
  (∑ z : Fin 16384, flatInput m c (ix2 (j 0) z) * weights m c (ix2 (j 1) z)) + biasRow m c (ix2 (0 : Fin 1) (j 1))

/-- After a last reduction step the output block is the matching block of that matrix. -/
theorem block_value (c : Dev nD) (hX : ∀ j, flatInput m c j - flatInput m c j = 0) (hW : ∀ j, weights m c j - weights m c j = 0)
    (t : Fin cfg0.N) (h15 : t.val % 16 = 15) (y : S1024x1024.Idx) :
    blockAfter m c t.val t.isLt y = product m c (((cfg0.win 3).blk t).view.emb y) := by
  obtain ⟨p, q, rfl⟩ : ∃ (p q : Fin 1024), y = ix2 p q := ⟨y 0, y 1, eq_ix2 y⟩
  obtain ⟨-, -, -, -, -, -, e0, e1⟩ := index_maps t
  have hN : t.val < 512 := lt_of_lt_of_eq t.isLt N_0
  have hr : 1024 * (t.val / 64) + p.val < 8192 := by have := p.isLt; omega
  have ho : 1024 * (t.val / 16 % 4) + q.val < 4096 := by have := q.isLt; omega
  have hemb : ((cfg0.win 3).blk t).view.emb (ix2 p q) = (ix2 ⟨_, hr⟩ ⟨_, ho⟩ : S8192x4096.Idx) :=
    funext fun a => Fin.ext (by
      match a with
      | ⟨0, _⟩ => show win0_3.index t (0 : Fin 2) * 1024 + 1 * p.val = 1024 * (t.val / 64) + p.val; omega
      | ⟨1, _⟩ => show win0_3.index t (1 : Fin 2) * 1024 + 1 * q.val = 1024 * (t.val / 16 % 4) + q.val; omega)
  rw [block_after m c hX hW t.val t.isLt p q ⟨_, hr⟩ ⟨_, ho⟩ rfl rfl, h15, hemb]
  exact running_final _ _ _

/-- What a flushing point writes back is its block of the matrix. -/
theorem written_back (c : Dev nD) (hX : ∀ j, flatInput m c j - flatInput m c j = 0) (hW : ∀ j, weights m c j - weights m c j = 0)
    (t : Fin cfg0.N) (hf : (cfg0.win 3).flush t = true) :
    (dats m 0 c).flushed 3 t = ((cfg0.win 3).blk t).view.read (Elt Ideal) (product m c) := by
  have h15 : t.val % 16 = 15 := (flush0_3 t).mp hf
  show (cfg0.win 3).cut (grid0.coords t) ((dats m 0 c).after 3 t) = _
  rw [after0_3]
  refine funext fun y => ?_
  rw [View.read_apply]
  exact block_value m c hX hW t h15 y

/-- An index of the array is in point t's output block iff each coordinate is in the block's range. -/
theorem mem_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- Every entry of the array is in the block of the last reduction step of its row- and column-block. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨tv, htv⟩ : ∃ tv : ℕ, tv = ((i 0).val / 1024 * 4 + (i 1).val / 1024) * 16 + 15 := ⟨_, rfl⟩
  have ht : tv < cfg0.N := by rw [show cfg0.N = 512 from N_0]; omega
  obtain ⟨-, -, -, -, -, -, e0, e1⟩ := index_maps ⟨tv, ht⟩
  have e0' : win0_3.index ⟨tv, ht⟩ (0 : Fin 2) = tv / 64 := e0
  have e1' : win0_3.index ⟨tv, ht⟩ (1 : Fin 2) = tv / 16 % 4 := e1
  refine ⟨⟨tv, ht⟩, (flush0_3 _).mpr (by show tv % 16 = 15; omega), ?_⟩
  rw [mem_block]
  intro a
  match a with
  | ⟨0, _⟩ =>
    show win0_3.index ⟨tv, ht⟩ (0 : Fin 2) * 1024 ≤ (i 0).val ∧ (i 0).val < win0_3.index ⟨tv, ht⟩ (0 : Fin 2) * 1024 + 1024
    omega
  | ⟨1, _⟩ =>
    show win0_3.index ⟨tv, ht⟩ (1 : Fin 2) * 1024 ≤ (i 1).val ∧ (i 1).val < win0_3.index ⟨tv, ht⟩ (1 : Fin 2) * 1024 + 1024
    omega

/-- The call's result array ends as the matrix. -/
theorem call_result (c : Dev nD) (hX : ∀ j, flatInput m c j - flatInput m c j = 0) (hW : ∀ j, weights m c j - weights m c j = 0) :
    (dats m 0 c).arrAt 3 cfg0.N = product m c :=
  (dats m 0 c).arrAt_eq_of_cover 3 (product m c) (written_back m c hX hW) (covered)

/-- The program's result: the matrix re-laid as [2, 4096, 4096]. -/
theorem tail_value (c : Dev nD) (hX : ∀ j, flatInput m c j - flatInput m c j = 0) (hW : ∀ j, weights m c j - weights m c j = 0) :
    Pipeline.afterTail₀ cfgs (dats m) 0 (V0 m) [hostOps1] c main_v3
      = shapeCast S2x4096x4096 (product m c) Facts₀.shapeCasts_S8192x4096_S2x4096x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = product m c :=
    (Pipeline.withArrays_arr spec0 launch0.win.arr_inj c _ _ 3).trans (call_result m c hX hW)
  exact congrArg (fun X => shapeCast S2x4096x4096 X Facts₀.shapeCasts_S8192x4096_S2x4096x4096) e

/-- The idealized kernel's program, run: every weakly fair execution terminates with the result array at the re-laid matrix and
    the three arguments as launched. -/
theorem run (hfin : ∀ c : Dev nD, (∀ j, flatInput m c j - flatInput m c j = 0) ∧ (∀ j, weights m c j - weights m c j = 0)) :
    θ_run defs (onTc (τ := τ) (main (F := Ideal))) ⟨m, fun _ => 0, ρ⟩ fun r => ∀ c : Dev nD,
      r.2.mem ((c.tc : Thread nD τ).loc main_v3) = shapeCast S2x4096x4096 (product m c) Facts₀.shapeCasts_S8192x4096_S2x4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_value m c (hfin c).1 (hfin c).2),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-- The re-laid matrix is the linear layer of the three arguments: row n·4096 + s of the flattened input is the input's row
    (n, s), and the bias row's entry o is the bias's. -/
theorem result_eq (c : Dev nD) :
    shapeCast S2x4096x4096 (product m c) Facts₀.shapeCasts_S8192x4096_S2x4096x4096
      = Cert.Spec.linear (input m c) (weight m c) (bias m c) := by
  funext i
  obtain ⟨n, s, o, rfl⟩ : ∃ (n : Fin 2) (s : Fin 4096) (o : Fin 4096), i = ix3 n s o := ⟨i 0, i 1, i 2, eq_ix3 i⟩
  have hr : n.val * 4096 + s.val < 8192 := by have := n.isLt; have := s.isLt; omega
  rw [Cert.LibRows.unflatten_rows_apply (product m c) _ n s o ⟨_, hr⟩ rfl]
  show (∑ z : Fin 16384, flatInput m c (ix2 ⟨_, hr⟩ z) * weights m c (ix2 o z)) + biasRow m c (ix2 (0 : Fin 1) o)
    = (∑ z : Fin 16384, input m c (ix3 n s z) * weight m c (ix2 o z)) + bias m c (ix1 o)
  rw [biasRow_apply, weights_eq]
  exact congrArg (· + bias m c (ix1 o)) (Finset.sum_congr rfl fun z _ => by rw [flatInput_apply m c n s z ⟨_, hr⟩ rfl])

end Cert.KernelIdeal.Result

end
-- ==== Proof.RefSide.lean ====
/-
  The reference's result is the linear layer: at (n, s, o) its contraction of the input with the weight matrix over their last
  axes reads  Σ_z x(n, s, z) · w(o, z),  and the bias, placed along the last axis and repeated over the first two, reads b(o).
-/
import proofs.«104330_j46222438039739_2_alg».proof.Proof.Gen.ReferenceIdeal.Read
import proofs.«104330_j46222438039739_2_alg».proof.Proof.Spec
import Idealize.ShloMosaic.Lib.ValueIdx

noncomputable section

open scoped BigOperators

namespace Cert.RefSide

open Cert.ReferenceIdeal Cert.ReferenceIdeal.Read Idealize.ShloMosaic Idealize.ShloMosaic.ValueIdx

/-- The reference's last stage, as a function of the three arguments, is the linear layer. -/
theorem reference_eq (x0 : S2x4096x16384.Idx → EReal) (x1 : S4096x16384.Idx → EReal) (x2 : S4096.Idx → EReal) :
    val_main_v3 (F := Ideal) x0 x1 x2 = Cert.Spec.linear x0 x1 x2 := by
  funext i
  have el : ∀ k, lidx_main_v0 i k = ix3 (i 0) (i 1) k := fun k => funext fun a => by
    match a with
    | ⟨0, _⟩ => rfl
    | ⟨1, _⟩ => rfl
    | ⟨2, _⟩ => rfl
  have er : ∀ k, ridx_main_v0 i k = ix2 (i 2) k := fun k => funext fun a => by
    match a with
    | ⟨0, _⟩ => rfl
    | ⟨1, _⟩ => rfl
  have eb : idx_main_v1 (idx_main_v2 i) = ix1 (i 2) := funext fun a => by
    match a with
    | ⟨0, _⟩ => rfl
  rw [val_main_v3_apply, val_main_v0_apply, val_main_v2_apply, val_main_v1_apply]
  simp only [el, er, eb]
  rfl

end Cert.RefSide

end
-- ==== Proof.lean ====
/-
  A linear layer  y(n, s, o) = Σ_z x(n, s, z) · w(o, z) + b(o)  computed by a tiled kernel, against the same layer written as one
  contraction plus a broadcast bias.

  The kernel flattens x to an [8192, 16384] matrix and computes 1024×1024 output blocks, each over 16 reduction steps of 1024
  columns.  In a step it splits each operand block into a high part and a residual (x rounded to a narrower format, and x minus
  that rounding widened back) and accumulates three partial products, high·high + high·residual + residual·high, into the
  output block, which is reset to zero at the first step and receives the bias row after the last.

  Over the extended reals a change of format is the identity, so the high part is x itself and the residual is x − x.  The
  precondition makes every entry finite, hence x − x = 0, the two residual products are sums of zeros, and a step adds exactly
  its 1024 terms of Σ_z x·w.  Sixteen steps from zero add all 16384 terms (only associativity of + is used to regroup them), the
  bias follows, and the 32 output blocks tile the [8192, 4096] result, whose row n·4096 + s is the reference's row (n, s).  The
  reference's contraction read at an entry is the same sum, its broadcast bias the same b(o).

  The frames are the generated ones (the reference's is its generated run with the result dropped); the idealization replaced
  two round trips through the narrow format by the identity, and each is that rule's statement.
-/
import proofs.«104330_j46222438039739_2_alg».proof.Defs
import proofs.«104330_j46222438039739_2_alg».proof.Proof.Gen.Kernel
import proofs.«104330_j46222438039739_2_alg».proof.Proof.Gen.Kernel.Frame
import proofs.«104330_j46222438039739_2_alg».proof.Proof.Gen.KernelIdeal
import proofs.«104330_j46222438039739_2_alg».proof.Proof.Gen.KernelIdeal.Frame
import proofs.«104330_j46222438039739_2_alg».proof.Proof.Gen.ReferenceIdeal
import proofs.«104330_j46222438039739_2_alg».proof.Proof.Gen.ReferenceIdeal.Run
import proofs.«104330_j46222438039739_2_alg».proof.Proof.Gen.ReferenceIdeal.Read
import proofs.«104330_j46222438039739_2_alg».proof.Proof.Gen.Pre_finite_inputs
import proofs.«104330_j46222438039739_2_alg».proof.Proof.Finite
import proofs.«104330_j46222438039739_2_alg».proof.Proof.Result
import proofs.«104330_j46222438039739_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both rewrites replaced a round trip f32 → bf16 → f32 by the identity. -/
theorem preserves : Cert.preserves_Kernel_KernelIdeal :=
  ⟨IdealRules.truncf_extf.statement _ .f32 .bf16, IdealRules.truncf_extf.statement _ .f32 .bf16⟩

/-- Both programs end with the linear layer of the shared arguments. -/
theorem algebraic : Cert.algebraic_KernelIdeal_ReferenceIdeal := by
  intro m ρ m' ρ' hpre hagree
  have hfin : ∀ c : Dev Cert.KernelIdeal.nD,
      (∀ j, Cert.KernelIdeal.Blocks.flatInput m c j - Cert.KernelIdeal.Blocks.flatInput m c j = 0)
      ∧ (∀ j, Cert.KernelIdeal.Blocks.weights m c j - Cert.KernelIdeal.Blocks.weights m c j = 0) := fun c => by
    obtain ⟨h0, h1, -⟩ := Cert.Finite.of_pre _ _ _ (hpre c)
    exact ⟨Cert.KernelIdeal.Entry.flatInput_finite m c h0, Cert.KernelIdeal.Entry.weights_finite m c h1⟩
  refine ⟨fun c => Cert.Spec.linear (Cert.KernelIdeal.Entry.input m c) (Cert.KernelIdeal.Entry.weight m c)
    (Cert.KernelIdeal.Entry.bias m c), ?_, ?_⟩
  · exact (θ_run Cert.KernelIdeal.defs _ _).mono
      (fun _ h c => ⟨(h c).1.trans (Cert.KernelIdeal.Result.result_eq m c), (h c).2⟩)
      (Cert.KernelIdeal.Result.run m ρ hfin)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v3_eq, (hagree c).1, (hagree c).2.1, (hagree c).2.2]
    exact Cert.RefSide.reference_eq _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
